-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S128x1 .f32) (main_arg19 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg18
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S128x128 .f32) (main_arg15 : FVec F S128 .f32) (main_arg16 : FVec F S128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x1 .f32) (main_arg19 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_v63 main_v67

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x1 .f32) (main_arg19 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x1 .f32) (main_arg19 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x128 : Shape := ⟨2, ![1, 128]⟩
abbrev S400x10000 : Shape := ⟨2, ![400, 10000]⟩
abbrev S400x128 : Shape := ⟨2, ![400, 128]⟩
abbrev S1x1 : Shape := ⟨2, ![1, 1]⟩
abbrev S10000x1 : Shape := ⟨2, ![10000, 1]⟩
abbrev S400x1 : Shape := ⟨2, ![400, 1]⟩

abbrev nBuf : Space → Nat
  | .hbm => 68
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S128x128, .f32⟩
  | .hbm, ⟨32, _⟩ => ⟨S128x128, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S128x128, .f32⟩
  | .hbm, ⟨60, _⟩ => ⟨S128x128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S10000x128, .bf16⟩
  | .hbm, ⟨65, _⟩ => ⟨S10000x128, .bf16⟩
  | .hbm, ⟨66, _⟩ => ⟨S1x1, .f32⟩
  | .hbm, ⟨67, _⟩ => ⟨S10000x1, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .bf16⟩
  | .local _ .vmem, ⟨8, _⟩ => ⟨S400x128, .bf16⟩
  | .local _ .vmem, ⟨9, _⟩ => ⟨S400x10000, .f32⟩
  | .local _ .vmem, ⟨10, _⟩ => ⟨S400x10000, .f32⟩
  | .local _ .vmem, ⟨11, _⟩ => ⟨S10000x128, .bf16⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S400x1, .f32⟩
  | .local _ .vmem, ⟨19, _⟩ => ⟨S400x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x1_S400x1_1_0_0_1_n_n_wf : DotDims.WF S400x128 S128x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x1.size a ≤ S10000x1.size a
  hwx1_8 : ∀ i : grid1.Coords, EltTy.bits .f32 = 32 ∨ (Rect.block (s := S10000x1) S400x1.size (cc1_transform_8 i) (hinb1_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x1_S400x1_1_0_0_1_n_n : DotDims S400x128 S128x1 S400x1 where
  lhsContracting := [1]
  rhsContracting := [0]
  lhsNonContracting := [0]
  rhsNonContracting := [1]
  lhsBatch := []
  rhsBatch := []
  wf := dot_S400x128_S128x1_S400x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg18) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S400x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S1x128, .f32⟩
  | .hbm, ⟨34, _⟩ => ⟨S10000x128, .f32⟩
  | .hbm, ⟨35, _⟩ => ⟨S10000x128, .f32⟩
  | .hbm, ⟨36, _⟩ => ⟨S_, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S_, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S1x128, .f32⟩
  | .hbm, ⟨60, _⟩ => ⟨S10000x128, .f32⟩
  | .hbm, ⟨61, _⟩ => ⟨S10000x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S1x128, .f32⟩
  | .hbm, ⟨68, _⟩ => ⟨S10000x128, .f32⟩
  | .hbm, ⟨69, _⟩ => ⟨S10000x128, .f32⟩
  | .hbm, ⟨70, _⟩ => ⟨S1x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S1x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S10000x128, .f32⟩
  | .hbm, ⟨84, _⟩ => ⟨S10000x128, .f32⟩
  | .hbm, ⟨85, _⟩ => ⟨S1x128, .f32⟩
  | .hbm, ⟨86, _⟩ => ⟨S10000x128, .f32⟩
  | .hbm, ⟨87, _⟩ => ⟨S10000x128, .f32⟩
  | .hbm, ⟨88, _⟩ => ⟨S1x128, .f32⟩
  | .hbm, ⟨89, _⟩ => ⟨S10000x128, .f32⟩
  | .hbm, ⟨90, _⟩ => ⟨S10000x128, .f32⟩
  | .hbm, ⟨91, _⟩ => ⟨S_, .f32⟩
  | .hbm, ⟨92, _⟩ => ⟨S10000x128, .f32⟩
  | .hbm, ⟨93, _⟩ => ⟨S10000x128, .f32⟩
  | .hbm, ⟨94, _⟩ => ⟨S10000x1, .f32⟩
  | .hbm, ⟨95, _⟩ => ⟨S1x1, .f32⟩
  | .hbm, ⟨96, _⟩ => ⟨S10000x1, .f32⟩
  | .hbm, ⟨97, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_cst : Ref sig .tc := ⟨.hbm, 36, rfl⟩
abbrev main_call0_v0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_cst : Ref sig .tc := ⟨.hbm, 54, rfl⟩
abbrev main_call1_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call2_cst : Ref sig .tc := ⟨.hbm, 73, rfl⟩
abbrev main_call2_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_2 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call3_cst : Ref sig .tc := ⟨.hbm, 91, rfl⟩
abbrev main_call3_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.GinRun.lean ====
/-
  The idealized kernel program's run, with its result named.

  @main is four segments: the host operations that fold the normalisations into the weights, the first kernel, one host
  reshape, the second kernel. Every weakly fair execution terminates without a fault; on every core the result buffer
  ends at what the second kernel's write-backs leave in it (the boundary contents `W4` at the result's reference), and
  every argument array ends as launched. The thread state carried from segment to segment is "every unscoped buffer
  at the boundary's contents"; at the end that state is read against the final memory, at the result's reference as
  at each argument's.
-/
import proofs.«107468_g41583873360056_cont_8to1_b_969_2_alg».proof.Proof.Gen.KernelIdeal.Frame

set_option maxRecDepth 16384

noncomputable section

namespace Cert.Gin.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer at the last boundary's contents
    and every argument array as launched. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)

end Cert.Gin.Run

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«107468_g41583873360056_cont_8to1_b_969_2_alg».proof.Proof.LibDenseLayer
import proofs.«107468_g41583873360056_cont_8to1_b_969_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibFoldedNorm.lean ====
/-
  An evaluation-mode batch normalisation folded into the linear layer before it, on the extended reals: why folding
  changes nothing on FINITE numbers, with the layer of a graph network (dense adjacency) as the worked case.

  A layer takes node features `h : [M, D]` and a dense adjacency `adj : [M, M]` to

      relu (bn (relu (bn ((adj · h) · W1 + b1)) · W2 + b2))

  where `bn v = v / s · g + be` column by column (`s` a positive real, `g` and `be` per column). Since
  `((∑ k, x k · W k + b) / s) · g + be = ∑ k, x k · (W k · (g · (1 / s))) + (b · (g · (1 / s)) + be)` over the reals,
  the normalisation after a linear layer is a linear layer with the scaled weights `W · (g / s)` and the bias
  `b · (g / s) + be` (`bn_dense`). On the extended reals the identity needs every number to be real (it is
  distributivity, which fails at infinities), so the module carries `IsReal`: every entry is a real number. Sums,
  products, maxima and quotients by a nonzero real of real entries are real, so a layer of real arrays is real
  (`isReal_kerLayer`), which lets the second layer use the law again.
-/
import proofs.«107468_g41583873360056_cont_8to1_b_969_2_alg».proof.Proof.LibDenseLayer
import proofs.«107468_g41583873360056_cont_8to1_b_969_2_alg».proof.Proof.LibLayerForms
import proofs.«107468_g41583873360056_cont_8to1_b_969_2_alg».proof.Proof.LibSumSwap
import Idealize.ShloMosaic.PureOps.Ideal
import Idealize.ShloMosaic.Lib.ValueIdx

noncomputable section

open scoped BigOperators

namespace Cert.Gin

open Idealize.ShloMosaic Idealize.ShloMosaic.ValueIdx Cert.DenseLayer Cert.LayerForms

/-- A rank-2 array of extended reals. -/
abbrev Mat (a b : ℕ) : Type := (⟨2, ![a, b]⟩ : Shape).Idx → EReal

/-- Every entry is a real number. -/
def IsReal {ι : Type*} (v : ι → EReal) : Prop := ∀ i, ∃ r : ℝ, v i = (r : EReal)

/-- A finite sum of real numbers is a real number. -/
theorem sum_isReal {κ : Type*} [Fintype κ] (f : κ → EReal) (h : IsReal f) : ∃ r : ℝ, ∑ k, f k = (r : EReal) := by
  choose g hg using h
  exact ⟨∑ k, g k, by rw [SumSwap.coe_sum]; exact Finset.sum_congr rfl fun k _ => hg k⟩

/-- The plain product `x · w`: entry `(p, q)` is `∑ k, x (p, k) · w (k, q)`. -/
def mm {M K N : ℕ} (x : Mat M K) (w : Mat K N) : Mat M N :=
  fun i => ∑ k : Fin K, x (ix2 (i 0) k) * w (ix2 k (i 1))

theorem mm_ix2 {M K N : ℕ} (x : Mat M K) (w : Mat K N) (p : Fin M) (q : Fin N) :
    mm x w (ix2 p q) = ∑ k : Fin K, x (ix2 p k) * w (ix2 k q) := rfl

/-- Evaluation-mode batch normalisation with unit variance: `v / s · g + be`, column by column. -/
def bn {M N : ℕ} (s : EReal) (v : Mat M N) (g be : Fin N → EReal) : Mat M N :=
  fun i => Ideal.div (v i) s * g (i 1) + be (i 1)

/-- The weights of a linear layer with the normalisation's column scale `g · inv` folded in. -/
def foldW {K N : ℕ} (inv : EReal) (W : Mat K N) (g : Fin N → EReal) : Mat K N :=
  fun i => W i * (g (i 1) * inv)

/-- The bias of a linear layer with the normalisation folded in: `b · (g · inv) + be`. -/
def foldB {N : ℕ} (inv : EReal) (b g be : Fin N → EReal) : Fin N → EReal :=
  fun q => b q * (g q * inv) + be q

/-! ## Real entries stay real -/

theorem isReal_mm {M K N : ℕ} {x : Mat M K} {w : Mat K N} (hx : IsReal x) (hw : IsReal w) : IsReal (mm x w) := fun i => by
  obtain ⟨p, q, rfl⟩ : ∃ (p : Fin M) (q : Fin N), i = ix2 p q := ⟨i 0, i 1, eq_ix2 i⟩
  refine sum_isReal (fun k : Fin K => x (ix2 p k) * w (ix2 k q)) fun k => ?_
  obtain ⟨a, ha⟩ := hx (ix2 p k)
  obtain ⟨b, hb⟩ := hw (ix2 k q)
  exact ⟨a * b, by show x (ix2 p k) * w (ix2 k q) = _; rw [ha, hb, EReal.coe_mul]⟩

theorem isReal_dense {M K N : ℕ} {x : Mat M K} {w : Mat K N} {b : Fin N → EReal} (hx : IsReal x) (hw : IsReal w)
    (hb : IsReal b) : IsReal (dense x w b) := fun i => by
  obtain ⟨p, q, rfl⟩ : ∃ (p : Fin M) (q : Fin N), i = ix2 p q := ⟨i 0, i 1, eq_ix2 i⟩
  obtain ⟨r, hr⟩ := isReal_mm hx hw (ix2 p q)
  obtain ⟨c, hc⟩ := hb q
  refine ⟨r + c, ?_⟩
  show (∑ k : Fin K, x (ix2 p k) * w (ix2 k q)) + b q = _
  rw [show (∑ k : Fin K, x (ix2 p k) * w (ix2 k q)) = (r : EReal) from hr, hc, EReal.coe_add]

theorem isReal_relu {S : Shape} {v : S.Idx → EReal} (hv : IsReal v) : IsReal (relu v) := fun i => by
  obtain ⟨r, hr⟩ := hv i
  refine ⟨max r 0, ?_⟩
  show max (v i) 0 = _
  rw [hr]
  show max (r : EReal) ((0 : ℝ) : EReal) = ((max r 0 : ℝ) : EReal)
  exact (EReal.coe_strictMono.monotone.map_max (a := r) (b := 0)).symm

theorem isReal_foldW {K N : ℕ} {W : Mat K N} {g : Fin N → EReal} (c : ℝ) (hW : IsReal W) (hg : IsReal g) :
    IsReal (foldW (c : EReal) W g) := fun i => by
  obtain ⟨p, q, rfl⟩ : ∃ (p : Fin K) (q : Fin N), i = ix2 p q := ⟨i 0, i 1, eq_ix2 i⟩
  obtain ⟨a, ha⟩ := hW (ix2 p q)
  obtain ⟨b, hb⟩ := hg q
  exact ⟨a * (b * c), by show W (ix2 p q) * (g q * (c : EReal)) = _; rw [ha, hb, EReal.coe_mul, EReal.coe_mul]⟩

theorem isReal_foldB {N : ℕ} {b g be : Fin N → EReal} (c : ℝ) (hb : IsReal b) (hg : IsReal g) (hbe : IsReal be) :
    IsReal (foldB (c : EReal) b g be) := fun q => by
  obtain ⟨a, ha⟩ := hb q
  obtain ⟨d, hd⟩ := hg q
  obtain ⟨e, he⟩ := hbe q
  exact ⟨a * (d * c) + e, by
    show b q * (g q * (c : EReal)) + be q = _
    rw [ha, hd, he, EReal.coe_add, EReal.coe_mul, EReal.coe_mul]⟩

theorem isReal_colBias {N : ℕ} {b : (⟨1, ![N]⟩ : Shape).Idx → EReal} (hb : IsReal b) : IsReal (colBias b) :=
  fun q => hb (ix1 q)

/-! ## The normalisation after a linear layer is a linear layer -/

/-- On real entries, `bn (x · W + b) = x · (W · (g / s)) + (b · (g / s) + be)` for a nonzero real `s`. -/
theorem bn_dense {M K N : ℕ} (σ : ℝ) (hσ : σ ≠ 0) {x : Mat M K} {W : Mat K N} {b g be : Fin N → EReal}
    (hx : IsReal x) (hW : IsReal W) (hb : IsReal b) (hg : IsReal g) (hbe : IsReal be) :
    bn (σ : EReal) (dense x W b) g be
      = dense x (foldW ((1 / σ : ℝ) : EReal) W g) (foldB ((1 / σ : ℝ) : EReal) b g be) := by
  choose xr hxr using hx
  choose Wr hWr using hW
  choose br hbr using hb
  choose gr hgr using hg
  choose ber hber using hbe
  funext i
  obtain ⟨p, q, rfl⟩ : ∃ (p : Fin M) (q : Fin N), i = ix2 p q := ⟨i 0, i 1, eq_ix2 i⟩
  show Ideal.div ((∑ k : Fin K, x (ix2 p k) * W (ix2 k q)) + b q) (σ : EReal) * g q + be q
    = (∑ k : Fin K, x (ix2 p k) * (W (ix2 k q) * (g q * ((1 / σ : ℝ) : EReal))))
        + (b q * (g q * ((1 / σ : ℝ) : EReal)) + be q)
  rw [Ideal.div_coe hσ]
  have hl : (∑ k : Fin K, x (ix2 p k) * W (ix2 k q))
      = ((∑ k : Fin K, xr (ix2 p k) * Wr (ix2 k q) : ℝ) : EReal) := by
    rw [SumSwap.coe_sum]
    exact Finset.sum_congr rfl fun k _ => by rw [hxr, hWr, EReal.coe_mul]
  have hr : (∑ k : Fin K, x (ix2 p k) * (W (ix2 k q) * (g q * ((1 / σ : ℝ) : EReal))))
      = ((∑ k : Fin K, xr (ix2 p k) * (Wr (ix2 k q) * (gr q * (1 / σ))) : ℝ) : EReal) := by
    rw [SumSwap.coe_sum]
    exact Finset.sum_congr rfl fun k _ => by rw [hxr, hWr, hgr, EReal.coe_mul, EReal.coe_mul, EReal.coe_mul]
  rw [hl, hr, hbr q, hgr q, hber q]
  have e : ((∑ k : Fin K, xr (ix2 p k) * Wr (ix2 k q) : ℝ) : EReal) + (br q : EReal)
        = (((∑ k : Fin K, xr (ix2 p k) * Wr (ix2 k q)) + br q : ℝ) : EReal) := (EReal.coe_add _ _).symm
  rw [e, ← EReal.coe_mul, ← EReal.coe_mul, ← EReal.coe_add, ← EReal.coe_mul, ← EReal.coe_mul, ← EReal.coe_add,
    ← EReal.coe_add]
  congr 1
  have : ∀ k : Fin K, xr (ix2 p k) * (Wr (ix2 k q) * (gr q * (1 / σ)))
      = xr (ix2 p k) * Wr (ix2 k q) * (gr q * (1 / σ)) := fun k => by ring
  simp only [this, ← Finset.sum_mul]
  ring

theorem isReal_bn {M N : ℕ} (σ : ℝ) (hσ : σ ≠ 0) {v : Mat M N} {g be : Fin N → EReal}
    (hv : IsReal v) (hg : IsReal g) (hbe : IsReal be) : IsReal (bn (σ : EReal) v g be) := fun i => by
  obtain ⟨p, q, rfl⟩ : ∃ (p : Fin M) (q : Fin N), i = ix2 p q := ⟨i 0, i 1, eq_ix2 i⟩
  obtain ⟨a, ha⟩ := hv (ix2 p q)
  obtain ⟨d, hd⟩ := hg q
  obtain ⟨e, he⟩ := hbe q
  refine ⟨a * (1 / σ) * d + e, ?_⟩
  show Ideal.div (v (ix2 p q)) (σ : EReal) * g q + be q = _
  rw [Ideal.div_coe hσ, ha, hd, he, EReal.coe_add, EReal.coe_mul, EReal.coe_mul]

/-! ## A layer, as the reference states it and from folded weights -/

/-- One layer as stated: normalisations explicit. -/
def refLayer {M' M D H : ℕ} (s : EReal) (adj : Mat M' M) (h : Mat M D) (W1 : Mat D H) (b1 g1 be1 : Fin H → EReal)
    (W2 : Mat H H) (b2 g be : Fin H → EReal) : Mat M' H :=
  relu (bn s (dense (relu (bn s (dense (mm adj h) W1 b1) g1 be1)) W2 b2) g be)

/-- One layer from weights and biases that already carry the normalisations. -/
def kerLayer {M' M D H : ℕ} (adj : Mat M' M) (h : Mat M D) (w1 : Mat D H) (s1 : Fin H → EReal) (w2 : Mat H H)
    (s2 : Fin H → EReal) : Mat M' H :=
  relu (dense (relu (dense (mm adj h) w1 s1)) w2 s2)

theorem isReal_kerLayer {M' M D H : ℕ} {adj : Mat M' M} {h : Mat M D} {w1 : Mat D H} {s1 : Fin H → EReal} {w2 : Mat H H}
    {s2 : Fin H → EReal} (hadj : IsReal adj) (hh : IsReal h) (hw1 : IsReal w1) (hs1 : IsReal s1) (hw2 : IsReal w2)
    (hs2 : IsReal s2) : IsReal (kerLayer adj h w1 s1 w2 s2) :=
  isReal_relu (isReal_dense (isReal_relu (isReal_dense (isReal_mm hadj hh) hw1 hs1)) hw2 hs2)

/-- On real entries the stated layer is the layer from folded weights. -/
theorem refLayer_eq {M' M D H : ℕ} (σ : ℝ) (hσ : σ ≠ 0) {adj : Mat M' M} {h : Mat M D} {W1 : Mat D H}
    {b1 g1 be1 : Fin H → EReal} {W2 : Mat H H} {b2 g be : Fin H → EReal}
    (hadj : IsReal adj) (hh : IsReal h) (hW1 : IsReal W1) (hb1 : IsReal b1) (hg1 : IsReal g1) (hbe1 : IsReal be1)
    (hW2 : IsReal W2) (hb2 : IsReal b2) (hg : IsReal g) (hbe : IsReal be) :
    refLayer (σ : EReal) adj h W1 b1 g1 be1 W2 b2 g be
      = kerLayer adj h (foldW ((1 / σ : ℝ) : EReal) W1 g1) (foldB ((1 / σ : ℝ) : EReal) b1 g1 be1)
          (foldW ((1 / σ : ℝ) : EReal) W2 g) (foldB ((1 / σ : ℝ) : EReal) b2 g be) := by
  unfold refLayer kerLayer
  rw [bn_dense σ hσ (isReal_mm hadj hh) hW1 hb1 hg1 hbe1]
  rw [bn_dense σ hσ (isReal_relu (isReal_dense (isReal_mm hadj hh) (isReal_foldW (1 / σ) hW1 hg1)
    (isReal_foldB (1 / σ) hb1 hg1 hbe1))) hW2 hb2 hg hbe]

/-! ## Blocks of rows

  Row `p` of a product `x · w` depends on row `p` of `x` only, so a layer evaluated on a block of rows of the adjacency
  is that block of rows of the layer. -/

/-- The product of a block of rows is that block of rows of the product. -/
theorem mm_rows {m M K N : ℕ} {xb : Mat m K} {x : Mat M K} {off : ℕ} (h : RowsAgree xb x off) (w : Mat K N) :
    RowsAgree (mm xb w) (mm x w) off := fun p P hP q => by
  rw [mm_ix2, mm_ix2]
  exact Finset.sum_congr rfl fun k _ => by rw [h p P hP k]

/-- A layer on a block of rows of the adjacency is that block of rows of the layer. -/
theorem kerLayer_rows {m M' M D H : ℕ} {adjb : Mat m M} {adj : Mat M' M} {off : ℕ} (h : RowsAgree adjb adj off)
    (x : Mat M D) (w1 : Mat D H) (s1 : Fin H → EReal) (w2 : Mat H H) (s2 : Fin H → EReal) :
    RowsAgree (kerLayer adjb x w1 s1 w2 s2) (kerLayer adj x w1 s1 w2 s2) off :=
  relu_rows (dense_rows (relu_rows (dense_rows (mm_rows h x) w1 s1)) w2 s2)

end Cert.Gin

end
-- ==== Proof.GinBody.lean ====
/-
  What the two kernel bodies compute from the blocks they load, on the extended reals.

  Both bodies load a block of rows of the adjacency, the whole node-feature matrix, and folded weights and biases (each
  bias a `[1, N]` row), and compute a layer on that block of rows: the pooled product `adj · h` (the casts to a
  narrower format are the identity on the extended reals), then twice a linear layer — a product into a zero
  accumulator plus the bias row broadcast over the rows — followed by the rectifier. That is `Cert.Gin.kerLayer` of
  the loaded block (`pay0_eq`). The second body ends with the final prediction, one more linear layer with a single
  output column (`pay1_eq`).
-/
import proofs.«107468_g41583873360056_cont_8to1_b_969_2_alg».proof.Proof.Gen.KernelIdeal.Skeleton
import proofs.«107468_g41583873360056_cont_8to1_b_969_2_alg».proof.Proof.LibFoldedNorm
import proofs.«107468_g41583873360056_cont_8to1_b_969_2_alg».proof.Proof.LibLayerForms
import proofs.«107468_g41583873360056_cont_8to1_b_969_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Gin.Body

open Idealize.ShloMosaic Idealize.ShloMosaic.ValueIdx Cert.DenseLayer Cert.LayerForms Cert.Gin

/-- The single row of a `[1, N]` array, as a function of the column. -/
def rowBias {N : ℕ} (r : Mat 1 N) : Fin N → EReal := fun q => r (ix2 (0 : Fin 1) q)

/-- The pooled product as a vector unit spells it: the left operand cast to a narrower format (the identity here), the
    product accumulated into zero. -/
theorem vec_pool {m M D : ℕ} (Dd : DotDims ⟨2, ![m, M]⟩ ⟨2, ![M, D]⟩ ⟨2, ![m, D]⟩) (hD : Dd = DotDims.plain m M D)
    (prec : Option ContractPrecision) (a : FVec Ideal ⟨2, ![m, M]⟩ .f32) (h : FVec Ideal ⟨2, ![M, D]⟩ .bf16)
    (hlt : FTy.bf16.bits < FTy.f32.bits) :
    matmul Dd prec (truncf .bf16 a hlt) h (constant ⟨2, ![m, D]⟩ .f32 0x00000000#32) = mm a h := by
  funext i
  obtain ⟨p, q, rfl⟩ : ∃ (p : Fin m) (q : Fin D), i = ix2 p q := ⟨i 0, i 1, eq_ix2 i⟩
  show FloatOps.matmul Dd prec (truncf .bf16 a hlt) h (constant ⟨2, ![m, D]⟩ .f32 0x00000000#32) (ix2 p q)
    = ∑ k : Fin M, a (ix2 p k) * h (ix2 k q)
  rw [Cert.LibPlainMatmul.matmul_plain_zero_apply Dd hD]
  rfl

/-- A linear layer as a vector unit spells it when the bias is already a `[1, N]` row: the product into a zero
    accumulator plus the row broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (r : FVec Ideal ⟨2, ![1, N]⟩ .f32) (hb : (⟨2, ![1, N]⟩ : Shape).Broadcasts ⟨2, ![M, N]⟩) :
    addf (matmul D prec x w (constant ⟨2, ![M, N]⟩ .f32 0x00000000#32)) (broadcastTo ⟨2, ![M, N]⟩ r hb)
      = dense x w (rowBias r) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ r hb (ix2 p q)
    = (∑ k : Fin K, x (ix2 p k) * w (ix2 k q)) + r (ix2 (0 : Fin 1) q)
  rw [Cert.LibPlainMatmul.matmul_plain_zero_apply D hD, broadcastTo_1b_ab_apply]

open Cert.KernelIdeal Cert.KernelIdeal.Gen in
/-- The first body's stored value: a layer on the loaded block of rows of the adjacency. -/
theorem pay0_eq (x0 : Vec Ideal S400x10000 .f32) (x1 : Vec Ideal S10000x128 .bf16) (x2 : Vec Ideal S128x128 .f32)
    (x3 : Vec Ideal S1x128 .f32) (x4 : Vec Ideal S128x128 .f32) (x5 : Vec Ideal S1x128 .f32) :
    k0_pay1 (F := Ideal) x0 x1 x2 x3 x4 x5 = kerLayer x0 x1 x2 (rowBias x3) x4 (rowBias x5) := by
  unfold k0_pay1 kerLayer
  dsimp only
  simp only [shapeCast_self]
  rw [vec_pool dot_S400x10000_S10000x128_S400x128_1_0_0_1_n_n rfl,
    vec_layer_row dot_S400x128_S128x128_S400x128_1_0_0_1_n_n rfl, vec_relu,
    vec_layer_row dot_S400x128_S128x128_S400x128_1_0_0_1_n_n rfl, vec_relu]
  rfl

open Cert.KernelIdeal Cert.KernelIdeal.Gen in
/-- The second body's stored value: the final prediction of a layer on the loaded block of rows. -/
theorem pay1_eq (x0 : Vec Ideal S400x10000 .f32) (x1 : Vec Ideal S10000x128 .bf16) (x2 : Vec Ideal S128x128 .f32)
    (x3 : Vec Ideal S1x128 .f32) (x4 : Vec Ideal S128x128 .f32) (x5 : Vec Ideal S1x128 .f32)
    (x6 : Vec Ideal S128x1 .f32) (x7 : Vec Ideal S1x1 .f32) :
    k1_pay1 (F := Ideal) x0 x1 x2 x3 x4 x5 x6 x7
      = dense (kerLayer x0 x1 x2 (rowBias x3) x4 (rowBias x5)) x6 (rowBias x7) := by
  unfold k1_pay1 kerLayer
  dsimp only
  simp only [shapeCast_self]
  rw [vec_pool dot_S400x10000_S10000x128_S400x128_1_0_0_1_n_n rfl,
    vec_layer_row dot_S400x128_S128x128_S400x128_1_0_0_1_n_n rfl, vec_relu,
    vec_layer_row dot_S400x128_S128x128_S400x128_1_0_0_1_n_n rfl, vec_relu,
    vec_layer_row dot_S400x128_S128x1_S400x1_1_0_0_1_n_n rfl]

end Cert.Gin.Body

end
-- ==== Proof.GinRegion0.lean ====
/-
  The first kernel's output array after its run, as one function of the arrays it reads.

  The grid has 25 points; point `t` loads rows `400 t … 400 t + 399` of the adjacency and the whole of every other
  operand, and writes rows `400 t … 400 t + 399` of the output. Row `p` of a layer depends on row `p` of the
  adjacency only, so what point `t` writes is rows `400 t …` of the layer of the WHOLE adjacency (`flushed_eq`); the 25
  blocks of rows cover the output (`cover`), so the output array ends holding the layer of the whole arrays (`final`).
-/
import proofs.«107468_g41583873360056_cont_8to1_b_969_2_alg».proof.Proof.Gen.KernelIdeal.Frame
import proofs.«107468_g41583873360056_cont_8to1_b_969_2_alg».proof.Proof.GinBody
import Idealize.ShloMosaic.Lib.Pipeline.Value

set_option maxRecDepth 16384

noncomputable section

namespace Cert.Gin.Region0

open Idealize.ShloMosaic Idealize.ShloMosaic.TcCoe Idealize.ShloMosaic.ValueIdx Idealize.SL.Sem
open Idealize.ShloMosaic.Pipeline (Dat)
open Cert.KernelIdeal Cert.KernelIdeal.Gen Cert.DenseLayer Cert.LayerForms Cert.Gin Cert.Gin.Body

theorem hz : (![0, 0] : Fin 2 → Nat) = fun _ => 0 := funext fun a => by fin_cases a <;> rfl

variable (V : (c : Dev nD) → (b : Ref sig .tc) → Buf (Elt Ideal) ((c : Thread nD τ).loc b))

/-- The layer of the whole arrays the region reads on entry. -/
def G (c : Dev nD) : S10000x128.Idx → EReal :=
  kerLayer (V c main_arg1) (V c main_v40) (V c main_v10) (rowBias (V c main_v13)) (V c main_v16) (rowBias (V c main_v19))

/-- The printed index maps over the grid: the adjacency's and the output's block of rows is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := lt_of_lt_of_eq t.isLt N_0

/-- The adjacency's block at point `t` is rows `400 t …` of the adjacency. -/
theorem rows_adj (c : Dev nD) (t : Fin cfg0.N) : RowsAgree (iblk0 V c 0 t) (V c main_arg1) (t.val * 400) := fun p P hP k => by
  obtain ⟨e0, e1, -⟩ := idx_facts t
  show V c main_arg1 (((cfg0.win 0).blk t).view.emb (ix2 p k)) = V c main_arg1 (ix2 P k)
  refine congrArg _ (funext fun a => Fin.ext ?_)
  match a with
  | ⟨0, _⟩ => show win0_0.index t (0 : Fin 2) * 400 + 1 * p.val = P.val; omega
  | ⟨1, _⟩ => show win0_0.index t (1 : Fin 2) * 10000 + 1 * k.val = k.val; omega

/-- Every other operand's block is the whole operand. -/
theorem blk1 (c : Dev nD) (t : Fin cfg0.N) : iblk0 V c 1 t = V c main_v40 := by
  obtain ⟨-, -, e0, e1, -⟩ := idx_facts t
  funext j
  show V c main_v40 (((cfg0.win 1).blk t).view.emb j) = V c main_v40 j
  refine congrArg _ (funext fun a => Fin.ext ?_)
  match a with
  | ⟨0, _⟩ => show win0_1.index t (0 : Fin 2) * 10000 + 1 * (j 0).val = (j 0).val; omega
  | ⟨1, _⟩ => show win0_1.index t (1 : Fin 2) * 128 + 1 * (j 1).val = (j 1).val; omega
theorem blk2 (c : Dev nD) (t : Fin cfg0.N) : iblk0 V c 2 t = V c main_v10 := by
  obtain ⟨-, -, -, -, e0, e1, -⟩ := idx_facts t
  funext j
  show V c main_v10 (((cfg0.win 2).blk t).view.emb j) = V c main_v10 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega
theorem blk3 (c : Dev nD) (t : Fin cfg0.N) : iblk0 V c 3 t = V c main_v13 := by
  obtain ⟨-, -, -, -, -, -, e0, e1, -⟩ := idx_facts t
  funext j
  show V c main_v13 (((cfg0.win 3).blk t).view.emb j) = V c main_v13 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega
theorem blk4 (c : Dev nD) (t : Fin cfg0.N) : iblk0 V c 4 t = V c main_v16 := by
  obtain ⟨-, -, -, -, -, -, -, -, e0, e1, -⟩ := idx_facts t
  funext j
  show V c main_v16 (((cfg0.win 4).blk t).view.emb j) = V c main_v16 j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega
theorem blk5 (c : Dev nD) (t : Fin cfg0.N) : iblk0 V c 5 t = V c main_v19 := by
  obtain ⟨-, -, -, -, -, -, -, -, -, -, e0, e1, -⟩ := idx_facts t
  funext j
  show V c main_v19 (((cfg0.win 5).blk t).view.emb j) = V c main_v19 j
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- What point `t` writes back is rows `400 t …` of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S400x10000) hz, View.ld_unit_zero (S := S10000x128) hz,
    View.ld_unit_zero (S := S128x128) hz, View.ld_unit_zero (S := S1x128) hz]
  rw [pay0_eq, blk1 V c t, blk2 V c t, blk3 V c t, blk4 V c t, blk5 V c t]
  have ht := t_lt t
  obtain ⟨-, -, -, -, -, -, -, -, -, -, -, -, e0, e1⟩ := idx_facts t
  funext j
  obtain ⟨p, q, rfl⟩ : ∃ (p : Fin 400) (q : Fin 128), j = ix2 p q := ⟨j 0, j 1, eq_ix2 j⟩
  have hp := p.isLt
  show kerLayer (iblk0 V c 0 t) (V c main_v40) (V c main_v10) (rowBias (V c main_v13)) (V c main_v16) (rowBias (V c main_v19)) (ix2 p q)
    = G V c (((cfg0.win 6).blk t).view.emb (ix2 p q))
  have hemb : ((cfg0.win 6).blk t).view.emb (ix2 p q) = ix2 (⟨t.val * 400 + p.val, by omega⟩ : Fin 10000) q := by
    refine funext fun a => Fin.ext ?_
    match a with
    | ⟨0, _⟩ => show win0_6.index t (0 : Fin 2) * 400 + 1 * p.val = t.val * 400 + p.val; omega
    | ⟨1, _⟩ => show win0_6.index t (1 : Fin 2) * 128 + 1 * q.val = q.val; omega
  rw [hemb]
  exact kerLayer_rows (rows_adj V c t) (V c main_v40) (V c main_v10) (rowBias (V c main_v13)) (V c main_v16)
    (rowBias (V c main_v19)) p ⟨t.val * 400 + p.val, by omega⟩ rfl q

/-- An index of the output array is in point `t`'s block iff each coordinate is in the block's range on its axis. -/
theorem mem_blk (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v41).slice (win0_6.rect t)).set ↔ _
  rw [View.set_slice_whole, Rect.mem_set_unit]
  exact Iff.rfl

/-- The 25 blocks of rows cover the output array: row `r` is in block `r / 400`. -/
theorem cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have htv : t.val = (i 0).val / 400 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- The output array after the run is the layer of the whole arrays. -/
theorem final (c : Dev nD) : (dat0 V c).arrAt 6 cfg0.N = G V c :=
  (dat0 V c).arrAt_eq_of_cover 6 (G V c) (fun t _ => flushed_eq V c t) (cover)

end Cert.Gin.Region0

end
-- ==== Proof.GinRegion1.lean ====
/-
  The second kernel's output array after its run, as one function of the arrays it reads.

  As in the first kernel, point `t` of 25 loads rows `400 t … 400 t + 399` of the adjacency and the whole of every
  other operand; it writes rows `400 t … 400 t + 399` of the one-column output: the final prediction of a layer. A row of
  the prediction depends on the same row of the layer, hence on the same row of the adjacency only, so what point `t`
  writes is rows `400 t …` of the prediction computed from the WHOLE adjacency (`flushed_eq`); the 25 blocks of rows
  cover the output (`cover`), so the output array ends holding the prediction of the whole arrays (`final`).
-/
import proofs.«107468_g41583873360056_cont_8to1_b_969_2_alg».proof.Proof.Gen.KernelIdeal.Frame
import proofs.«107468_g41583873360056_cont_8to1_b_969_2_alg».proof.Proof.GinBody
import Idealize.ShloMosaic.Lib.Pipeline.Value

set_option maxRecDepth 16384

noncomputable section

namespace Cert.Gin.Region1

open Idealize.ShloMosaic Idealize.ShloMosaic.TcCoe Idealize.ShloMosaic.ValueIdx Idealize.SL.Sem
open Idealize.ShloMosaic.Pipeline (Dat)
open Cert.KernelIdeal Cert.KernelIdeal.Gen Cert.DenseLayer Cert.LayerForms Cert.Gin Cert.Gin.Body

theorem hz : (![0, 0] : Fin 2 → Nat) = fun _ => 0 := funext fun a => by fin_cases a <;> rfl

variable (V : (c : Dev nD) → (b : Ref sig .tc) → Buf (Elt Ideal) ((c : Thread nD τ).loc b))

/-- The final prediction of the layer of the whole arrays the region reads on entry. -/
def G (c : Dev nD) : S10000x1.Idx → EReal :=
  dense (kerLayer (V c main_arg1) (V c main_v41) (V c main_v30) (rowBias (V c main_v33)) (V c main_v36) (rowBias (V c main_v39)))
    (V c main_arg18) (rowBias (V c main_v42))

/-- The printed index maps over the grid: the adjacency's and the output's block of rows is the point's number, every
    other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem t_lt (t : Fin cfg1.N) : t.val < 25 := lt_of_lt_of_eq t.isLt N_1

/-- The adjacency's block at point `t` is rows `400 t …` of the adjacency. -/
theorem rows_adj (c : Dev nD) (t : Fin cfg1.N) : RowsAgree (iblk1 V c 0 t) (V c main_arg1) (t.val * 400) := fun p P hP k => by
  obtain ⟨e0, e1, -⟩ := idx_facts t
  show V c main_arg1 (((cfg1.win 0).blk t).view.emb (ix2 p k)) = V c main_arg1 (ix2 P k)
  refine congrArg _ (funext fun a => Fin.ext ?_)
  match a with
  | ⟨0, _⟩ => show win1_0.index t (0 : Fin 2) * 400 + 1 * p.val = P.val; omega
  | ⟨1, _⟩ => show win1_0.index t (1 : Fin 2) * 10000 + 1 * k.val = k.val; omega

/-- Every other operand's block is the whole operand. -/
theorem blk1 (c : Dev nD) (t : Fin cfg1.N) : iblk1 V c 1 t = V c main_v41 := by
  obtain ⟨-, -, e0, e1, -⟩ := idx_facts t
  funext j
  show V c main_v41 (((cfg1.win 1).blk t).view.emb j) = V c main_v41 j
  refine congrArg _ (funext fun a => Fin.ext ?_)
  match a with
  | ⟨0, _⟩ => show win1_1.index t (0 : Fin 2) * 10000 + 1 * (j 0).val = (j 0).val; omega
  | ⟨1, _⟩ => show win1_1.index t (1 : Fin 2) * 128 + 1 * (j 1).val = (j 1).val; omega
theorem blk2 (c : Dev nD) (t : Fin cfg1.N) : iblk1 V c 2 t = V c main_v30 := by
  obtain ⟨-, -, -, -, e0, e1, -⟩ := idx_facts t
  funext j
  show V c main_v30 (((cfg1.win 2).blk t).view.emb j) = V c main_v30 j
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega
theorem blk3 (c : Dev nD) (t : Fin cfg1.N) : iblk1 V c 3 t = V c main_v33 := by
  obtain ⟨-, -, -, -, -, -, e0, e1, -⟩ := idx_facts t
  funext j
  show V c main_v33 (((cfg1.win 3).blk t).view.emb j) = V c main_v33 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega
theorem blk4 (c : Dev nD) (t : Fin cfg1.N) : iblk1 V c 4 t = V c main_v36 := by
  obtain ⟨-, -, -, -, -, -, -, -, e0, e1, -⟩ := idx_facts t
  funext j
  show V c main_v36 (((cfg1.win 4).blk t).view.emb j) = V c main_v36 j
  refine congrArg _ (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega
theorem blk5 (c : Dev nD) (t : Fin cfg1.N) : iblk1 V c 5 t = V c main_v39 := by
  obtain ⟨-, -, -, -, -, -, -, -, -, -, e0, e1, -⟩ := idx_facts t
  funext j
  show V c main_v39 (((cfg1.win 5).blk t).view.emb j) = V c main_v39 j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

theorem blk6 (c : Dev nD) (t : Fin cfg1.N) : iblk1 V c 6 t = V c main_arg18 := by
  obtain ⟨-, -, -, -, -, -, -, -, -, -, -, -, e0, e1, -⟩ := idx_facts t
  funext j
  show V c main_arg18 (((cfg1.win 6).blk t).view.emb j) = V c main_arg18 j
  refine congrArg _ (funext fun a => Fin.ext ?_)
  match a with
  | ⟨0, _⟩ => show win1_6.index t (0 : Fin 2) * 128 + 1 * (j 0).val = (j 0).val; omega
  | ⟨1, _⟩ => show win1_6.index t (1 : Fin 2) * 1 + 1 * (j 1).val = (j 1).val; omega
theorem blk7 (c : Dev nD) (t : Fin cfg1.N) : iblk1 V c 7 t = V c main_v42 := by
  obtain ⟨-, -, -, -, -, -, -, -, -, -, -, -, -, -, e0, e1, -⟩ := idx_facts t
  funext j
  show V c main_v42 (((cfg1.win 7).blk t).view.emb j) = V c main_v42 j
  refine congrArg _ (funext fun a => Fin.ext ?_)
  match a with
  | ⟨0, _⟩ => show win1_7.index t (0 : Fin 2) * 1 + 1 * (j 0).val = (j 0).val; omega
  | ⟨1, _⟩ => show win1_7.index t (1 : Fin 2) * 1 + 1 * (j 1).val = (j 1).val; omega

/-- What point `t` writes back is rows `400 t …` of the prediction of the whole arrays. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S400x10000) hz, View.ld_unit_zero (S := S10000x128) hz,
    View.ld_unit_zero (S := S128x128) hz, View.ld_unit_zero (S := S1x128) hz, View.ld_unit_zero (S := S128x1) hz,
    View.ld_unit_zero (S := S1x1) hz]
  rw [pay1_eq, blk1 V c t, blk2 V c t, blk3 V c t, blk4 V c t, blk5 V c t, blk6 V c t, blk7 V c t]
  have ht := t_lt t
  obtain ⟨-, -, -, -, -, -, -, -, -, -, -, -, -, -, -, -, e0, e1⟩ := idx_facts t
  funext j
  obtain ⟨p, q, rfl⟩ : ∃ (p : Fin 400) (q : Fin 1), j = ix2 p q := ⟨j 0, j 1, eq_ix2 j⟩
  have hp := p.isLt
  show dense (kerLayer (iblk1 V c 0 t) (V c main_v41) (V c main_v30) (rowBias (V c main_v33)) (V c main_v36) (rowBias (V c main_v39)))
      (V c main_arg18) (rowBias (V c main_v42)) (ix2 p q)
    = G V c (((cfg1.win 8).blk t).view.emb (ix2 p q))
  have hemb : ((cfg1.win 8).blk t).view.emb (ix2 p q) = ix2 (⟨t.val * 400 + p.val, by omega⟩ : Fin 10000) q := by
    refine funext fun a => Fin.ext ?_
    match a with
    | ⟨0, _⟩ => show win1_8.index t (0 : Fin 2) * 400 + 1 * p.val = t.val * 400 + p.val; omega
    | ⟨1, _⟩ => show win1_8.index t (1 : Fin 2) * 1 + 1 * q.val = q.val; omega
  rw [hemb]
  exact dense_rows (kerLayer_rows (rows_adj V c t) (V c main_v41) (V c main_v30) (rowBias (V c main_v33)) (V c main_v36)
    (rowBias (V c main_v39))) (V c main_arg18) (rowBias (V c main_v42)) p ⟨t.val * 400 + p.val, by omega⟩ rfl q

/-- An index of the output array is in point `t`'s block iff each coordinate is in the block's range on its axis. -/
theorem mem_blk (t : Fin cfg1.N) (i : S10000x1.Idx) :
    i ∈ ((cfg1.win 8).blk t).view.set ↔ ∀ a : Fin 2, win1_8.index t a * S400x1.size a ≤ (i a).val
      ∧ (i a).val < win1_8.index t a * S400x1.size a + S400x1.size a := by
  show i ∈ ((View.whole main_v43).slice (win1_8.rect t)).set ↔ _
  rw [View.set_slice_whole, Rect.mem_set_unit]
  exact Iff.rfl

/-- The 25 blocks of rows cover the output array: row `r` is in block `r / 400`. -/
theorem cover (i : S10000x1.Idx) :
    ∃ t : Fin cfg1.N, (cfg1.win 8).flush t = true ∧ i ∈ ((cfg1.win 8).blk t).view.set := by
  have hi0 : (i 0).val < 10000 := (i 0).isLt
  have hi1 : (i 1).val < 1 := (i 1).isLt
  have hN : cfg1.N = 25 := N_1
  let t : Fin cfg1.N := ⟨(i 0).val / 400, by rw [hN]; omega⟩
  have htv : t.val = (i 0).val / 400 := rfl
  obtain ⟨-, -, -, -, -, -, -, -, -, -, -, -, -, -, -, -, e0, e1⟩ := idx_facts t
  refine ⟨t, flush1_8 t, ?_⟩
  rw [mem_blk]
  intro a
  match a with
  | ⟨0, _⟩ => show win1_8.index t (0 : Fin 2) * 400 ≤ (i 0).val ∧ (i 0).val < win1_8.index t (0 : Fin 2) * 400 + 400; omega
  | ⟨1, _⟩ => show win1_8.index t (1 : Fin 2) * 1 ≤ (i 1).val ∧ (i 1).val < win1_8.index t (1 : Fin 2) * 1 + 1; omega

/-- The output array after the run is the prediction of the whole arrays. -/
theorem final (c : Dev nD) : (dat1 V c).arrAt 8 cfg1.N = G V c :=
  (dat1 V c).arrAt_eq_of_cover 8 (G V c) (fun t _ => flushed_eq V c t) (cover)

end Cert.Gin.Region1

end
-- ==== Proof.GinNet.lean ====
/-
  The whole two-layer network as one function of its twenty arrays, in the two forms the two programs compute.

  `refNet` is the network as stated: two layers with their normalisations explicit (`Cert.Gin.refLayer`), then the
  final linear prediction. `kerNet` is the same network computed from weights and biases into which each normalisation
  has been folded (`Cert.Gin.kerLayer` on `foldW` / `foldB`). The normalisation's denominator is
  `sigmaE = sqrt (1 + 1e-5)`, with `1 + 1e-5` the single-precision number `1 + 84 / 2^23`; the folded scale is
  `invE = 1 / sigmaE`. When every input entry is real the two networks are equal (`refNet_eq_kerNet`): layer by
  layer the stated layer is the folded one (`Cert.Gin.refLayer_eq`), and the first layer's output is real again.
-/
import proofs.«107468_g41583873360056_cont_8to1_b_969_2_alg».proof.Proof.LibFoldedNorm

noncomputable section

open scoped BigOperators

namespace Cert.Gin

open Idealize.ShloMosaic Idealize.ShloMosaic.ValueIdx Cert.DenseLayer Cert.LayerForms

/-- A rank-1 array of extended reals. -/
abbrev Vec1 (a : ℕ) : Type := (⟨1, ![a]⟩ : Shape).Idx → EReal

/-- The normalisation's denominator `sqrt (1 + 1e-5)`. -/
def sigmaE : EReal := Ideal.sqrt (Ideal.ofBits .f32 0x3F800054#32)

/-- Its reciprocal, the scale the folded weights carry. -/
def invE : EReal := Ideal.div (Ideal.ofBits .f32 0x3F800000#32) sigmaE

/-- The network as stated. -/
def refNet {M D H : ℕ} (seq1 : Mat M D) (adj : Mat M M)
    (W1_0 : Mat D H) (b1_0 g1_0 be1_0 : Vec1 H) (W2_0 : Mat H H) (b2_0 g_0 be_0 : Vec1 H)
    (W1_1 : Mat H H) (b1_1 g1_1 be1_1 : Vec1 H) (W2_1 : Mat H H) (b2_1 g_1 be_1 : Vec1 H)
    (Wp : Mat H 1) (bp : Vec1 1) : Mat M 1 :=
  dense
    (refLayer sigmaE adj
      (refLayer sigmaE adj seq1 W1_0 (colBias b1_0) (colBias g1_0) (colBias be1_0) W2_0 (colBias b2_0) (colBias g_0) (colBias be_0))
      W1_1 (colBias b1_1) (colBias g1_1) (colBias be1_1) W2_1 (colBias b2_1) (colBias g_1) (colBias be_1))
    Wp (colBias bp)

/-- The network from folded weights. -/
def kerNet {M D H : ℕ} (seq1 : Mat M D) (adj : Mat M M)
    (W1_0 : Mat D H) (b1_0 g1_0 be1_0 : Vec1 H) (W2_0 : Mat H H) (b2_0 g_0 be_0 : Vec1 H)
    (W1_1 : Mat H H) (b1_1 g1_1 be1_1 : Vec1 H) (W2_1 : Mat H H) (b2_1 g_1 be_1 : Vec1 H)
    (Wp : Mat H 1) (bp : Vec1 1) : Mat M 1 :=
  dense
    (kerLayer adj
      (kerLayer adj seq1 (foldW invE W1_0 (colBias g1_0)) (foldB invE (colBias b1_0) (colBias g1_0) (colBias be1_0))
        (foldW invE W2_0 (colBias g_0)) (foldB invE (colBias b2_0) (colBias g_0) (colBias be_0)))
      (foldW invE W1_1 (colBias g1_1)) (foldB invE (colBias b1_1) (colBias g1_1) (colBias be1_1))
      (foldW invE W2_1 (colBias g_1)) (foldB invE (colBias b2_1) (colBias g_1) (colBias be_1)))
    Wp (colBias bp)

/-- With the denominator a nonzero real `σ` and every input entry real, the stated network is the folded one. -/
theorem refNet_eq_kerNet {M D H : ℕ} (σ : ℝ) (hσ : σ ≠ 0) (hs : sigmaE = (σ : EReal)) (hi : invE = ((1 / σ : ℝ) : EReal))
    {seq1 : Mat M D} {adj : Mat M M}
    {W1_0 : Mat D H} {b1_0 g1_0 be1_0 : Vec1 H} {W2_0 : Mat H H} {b2_0 g_0 be_0 : Vec1 H}
    {W1_1 : Mat H H} {b1_1 g1_1 be1_1 : Vec1 H} {W2_1 : Mat H H} {b2_1 g_1 be_1 : Vec1 H}
    {Wp : Mat H 1} {bp : Vec1 1}
    (h0 : IsReal seq1) (h1 : IsReal adj) (h2 : IsReal W1_0) (h3 : IsReal b1_0) (h4 : IsReal g1_0) (h5 : IsReal be1_0)
    (h6 : IsReal W2_0) (h7 : IsReal b2_0) (h8 : IsReal g_0) (h9 : IsReal be_0)
    (h10 : IsReal W1_1) (h11 : IsReal b1_1) (h12 : IsReal g1_1) (h13 : IsReal be1_1)
    (h14 : IsReal W2_1) (h15 : IsReal b2_1) (h16 : IsReal g_1) (h17 : IsReal be_1) :
    refNet seq1 adj W1_0 b1_0 g1_0 be1_0 W2_0 b2_0 g_0 be_0 W1_1 b1_1 g1_1 be1_1 W2_1 b2_1 g_1 be_1 Wp bp
      = kerNet seq1 adj W1_0 b1_0 g1_0 be1_0 W2_0 b2_0 g_0 be_0 W1_1 b1_1 g1_1 be1_1 W2_1 b2_1 g_1 be_1 Wp bp := by
  unfold refNet kerNet
  rw [hs, hi]
  rw [refLayer_eq σ hσ h1 h0 h2 (isReal_colBias h3) (isReal_colBias h4) (isReal_colBias h5) h6 (isReal_colBias h7)
    (isReal_colBias h8) (isReal_colBias h9)]
  rw [refLayer_eq σ hσ h1
    (isReal_kerLayer h1 h0 (isReal_foldW (1 / σ) h2 (isReal_colBias h4))
      (isReal_foldB (1 / σ) (isReal_colBias h3) (isReal_colBias h4) (isReal_colBias h5))
      (isReal_foldW (1 / σ) h6 (isReal_colBias h8))
      (isReal_foldB (1 / σ) (isReal_colBias h7) (isReal_colBias h8) (isReal_colBias h9)))
    h10 (isReal_colBias h11) (isReal_colBias h12) (isReal_colBias h13) h14 (isReal_colBias h15) (isReal_colBias h16)
    (isReal_colBias h17)]

end Cert.Gin

end
-- ==== Proof.GinHost.lean ====
/-
  The arrays each kernel finds when it is launched, as functions of @main's argument arrays.

  Before the first kernel the host computes, for each layer, the normalisation's scale `g · inv` with
  `inv = 1 / sqrt (1 + 1e-5)`, the folded weights `W · (g · inv)` (the scale broadcast over the rows) and the folded
  bias `b · (g · inv) + be` as a `[1, N]` row; it also casts the node features to a narrower format (the identity on
  the extended reals). Between the kernels it reshapes the prediction's bias `[1] → [1, 1]`. Reading each of those
  buffers after the host operations gives `Cert.Gin.foldW` / `foldB` of the argument arrays (`foldW_read`,
  `foldB_read`); the arguments themselves, and the first kernel's output, are read through to where they were written.
-/
import proofs.«107468_g41583873360056_cont_8to1_b_969_2_alg».proof.Proof.Gen.KernelIdeal.Frame
import proofs.«107468_g41583873360056_cont_8to1_b_969_2_alg».proof.Proof.GinNet
import proofs.«107468_g41583873360056_cont_8to1_b_969_2_alg».proof.Proof.GinBody
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gin.Host

open Idealize.ShloMosaic Idealize.ShloMosaic.TcCoe Idealize.ShloMosaic.ValueIdx Idealize.SL.Sem Idealize.ShloMosaic.StableHlo
open Cert.KernelIdeal Cert.KernelIdeal.Gen Cert.DenseLayer Cert.LayerForms Cert.Gin Cert.Gin.Body

/-! ## Broadcasts read at an index -/

/-- A rank-0 value broadcast to any shape reads everywhere as that value. -/
theorem bcast_scalar {S : Shape} {α : Type} (h : (⟨0, ![]⟩ : Shape).BroadcastsInDim S ![])
    (s : (⟨0, ![]⟩ : Shape).Idx → α) (i : S.Idx) : broadcastInDim S ![] h s i = s ix0 :=
  broadcastInDim_apply ![] h s i ix0 fun a => a.elim0

/-- A vector lifted to a `[1, N]` row reads at `(0, q)` as the vector at `q`. -/
theorem bcast_row {N : ℕ} {α : Type} (h1 : (⟨1, ![N]⟩ : Shape).BroadcastsInDim ⟨2, ![1, N]⟩ ![1])
    (v : (⟨1, ![N]⟩ : Shape).Idx → α) (q : Fin N) :
    broadcastInDim ⟨2, ![1, N]⟩ ![1] h1 v (ix2 (0 : Fin 1) q) = v (ix1 q) := by
  refine broadcastInDim_apply ![1] h1 v (ix2 (0 : Fin 1) q) (ix1 q) fun a => ?_
  match a with
  | ⟨0, _⟩ =>
    show q.val = if N = 1 then 0 else q.val
    split
    · have := q.isLt; omega
    · rfl

/-- That row broadcast over `M` rows reads at `(p, q)` as the vector at `q`. -/
theorem bcast_rows {M N : ℕ} {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (p : Fin M) (q : Fin N) :
    broadcastInDim ⟨2, ![M, N]⟩ ![0, 1] h2 (broadcastInDim ⟨2, ![1, N]⟩ ![1] h1 v) (ix2 p q) = v (ix1 q) := by
  have e2 : broadcastInDim ⟨2, ![M, N]⟩ ![0, 1] h2 (broadcastInDim ⟨2, ![1, N]⟩ ![1] h1 v) (ix2 p q)
      = broadcastInDim ⟨2, ![1, N]⟩ ![1] h1 v (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  rw [e2, bcast_row]

/-! ## The folded weights and biases as the host computes them -/

/-- The scalar the host computes, `1 / sqrt (1 + 1e-5)`, is `invE`. -/
theorem inv_read : (id (Host.divf (constant (F := Ideal) ⟨0, ![]⟩ .f32 0x3F800000#32) (Host.sqrt (constant (F := Ideal) ⟨0, ![]⟩ .f32 0x3F800054#32)))) ix0 = invE := rfl

/-- `W · broadcast (g · inv)` is the folded weight matrix. -/
theorem foldW_read {K N : ℕ} (W : FVec Ideal ⟨2, ![K, N]⟩ .f32) (g : FVec Ideal ⟨1, ![N]⟩ .f32)
    (h0 : (⟨0, ![]⟩ : Shape).BroadcastsInDim ⟨1, ![N]⟩ ![]) (h1 : (⟨1, ![N]⟩ : Shape).BroadcastsInDim ⟨2, ![1, N]⟩ ![1])
    (h2 : (⟨2, ![1, N]⟩ : Shape).BroadcastsInDim ⟨2, ![K, N]⟩ ![0, 1]) :
    mulf W (broadcastInDim ⟨2, ![K, N]⟩ ![0, 1] h2 (broadcastInDim ⟨2, ![1, N]⟩ ![1] h1
        (mulf g (broadcastInDim ⟨1, ![N]⟩ ![] h0 (id (Host.divf (constant (F := Ideal) ⟨0, ![]⟩ .f32 0x3F800000#32) (Host.sqrt (constant (F := Ideal) ⟨0, ![]⟩ .f32 0x3F800054#32))))))))
      = foldW invE W (colBias g) := by
  funext i
  obtain ⟨k, q, rfl⟩ : ∃ (k : Fin K) (q : Fin N), i = ix2 k q := ⟨i 0, i 1, eq_ix2 i⟩
  show W (ix2 k q) * broadcastInDim ⟨2, ![K, N]⟩ ![0, 1] h2 (broadcastInDim ⟨2, ![1, N]⟩ ![1] h1
        (mulf g (broadcastInDim ⟨1, ![N]⟩ ![] h0 (id (Host.divf (constant (F := Ideal) ⟨0, ![]⟩ .f32 0x3F800000#32) (Host.sqrt (constant (F := Ideal) ⟨0, ![]⟩ .f32 0x3F800054#32))))))) (ix2 k q)
    = W (ix2 k q) * (g (ix1 q) * invE)
  rw [bcast_rows]
  show W (ix2 k q) * (g (ix1 q) * broadcastInDim ⟨1, ![N]⟩ ![] h0 (id (Host.divf (constant (F := Ideal) ⟨0, ![]⟩ .f32 0x3F800000#32) (Host.sqrt (constant (F := Ideal) ⟨0, ![]⟩ .f32 0x3F800054#32)))) (ix1 q)) = _
  rw [bcast_scalar, inv_read]

/-- The row `broadcast (b · (g · inv) + be)` is the folded bias. -/
theorem foldB_read {N : ℕ} (b g be : FVec Ideal ⟨1, ![N]⟩ .f32)
    (h0 : (⟨0, ![]⟩ : Shape).BroadcastsInDim ⟨1, ![N]⟩ ![]) (h1 : (⟨1, ![N]⟩ : Shape).BroadcastsInDim ⟨2, ![1, N]⟩ ![1]) :
    rowBias (broadcastInDim ⟨2, ![1, N]⟩ ![1] h1
        (addf (mulf b (mulf g (broadcastInDim ⟨1, ![N]⟩ ![] h0 (id (Host.divf (constant (F := Ideal) ⟨0, ![]⟩ .f32 0x3F800000#32) (Host.sqrt (constant (F := Ideal) ⟨0, ![]⟩ .f32 0x3F800054#32))))))) be))
      = foldB invE (colBias b) (colBias g) (colBias be) := by
  funext q
  show broadcastInDim ⟨2, ![1, N]⟩ ![1] h1
        (addf (mulf b (mulf g (broadcastInDim ⟨1, ![N]⟩ ![] h0 (id (Host.divf (constant (F := Ideal) ⟨0, ![]⟩ .f32 0x3F800000#32) (Host.sqrt (constant (F := Ideal) ⟨0, ![]⟩ .f32 0x3F800054#32))))))) be) (ix2 (0 : Fin 1) q)
    = b (ix1 q) * (g (ix1 q) * invE) + be (ix1 q)
  rw [bcast_row]
  show b (ix1 q) * (g (ix1 q) * broadcastInDim ⟨1, ![N]⟩ ![] h0 (id (Host.divf (constant (F := Ideal) ⟨0, ![]⟩ .f32 0x3F800000#32) (Host.sqrt (constant (F := Ideal) ⟨0, ![]⟩ .f32 0x3F800054#32)))) (ix1 q)) + be (ix1 q) = _
  rw [bcast_scalar, inv_read]

/-- A `[1]` vector reshaped to `[1, 1]`, as a bias row, is the vector as a bias. -/
theorem reshape_row (x : FVec Ideal ⟨1, ![1]⟩ .f32) (h : (⟨1, ![1]⟩ : Shape).ShapeCasts ⟨2, ![1, 1]⟩) :
    rowBias (shapeCast ⟨2, ![1, 1]⟩ x h) = colBias x := by
  funext q
  show shapeCast ⟨2, ![1, 1]⟩ x h (ix2 (0 : Fin 1) q) = x (ix1 q)
  rw [shapeCast_a_1a_apply]

/-! ## What the first kernel finds -/

variable (m : (ℓ : Loc nD τ sig) → Buf (Elt Ideal) ℓ) (ρ : Dev nD → PrngReg)

theorem V1_adj (c : Dev nD) : V1 m ρ c main_arg1 = (m ((c.tc : Thread nD τ).loc main_arg1)) := by
  show StableHlo.after hostOps0 (W0 m ρ c) (Proc.devRef .tc main_arg1) = _
  after_results_simp <;> rfl

theorem V1_feat (c : Dev nD) : V1 m ρ c main_v40 = (m ((c.tc : Thread nD τ).loc main_arg0)) := by
  show StableHlo.after hostOps0 (W0 m ρ c) (Proc.devRef .tc main_v40) = _
  after_results_simp <;> rfl

theorem V1_w1 (c : Dev nD) : (V1 m ρ c main_v10 : S128x128.Idx → EReal) = foldW invE (m ((c.tc : Thread nD τ).loc main_arg2)) (colBias (m ((c.tc : Thread nD τ).loc main_arg4))) := by
  show StableHlo.after hostOps0 (W0 m ρ c) (Proc.devRef .tc main_v10) = _
  after_results_simp
  exact foldW_read _ _ _ _ _

theorem V1_s1 (c : Dev nD) : rowBias (V1 m ρ c main_v13) = foldB invE (colBias (m ((c.tc : Thread nD τ).loc main_arg3))) (colBias (m ((c.tc : Thread nD τ).loc main_arg4))) (colBias (m ((c.tc : Thread nD τ).loc main_arg5))) := by
  show rowBias (StableHlo.after hostOps0 (W0 m ρ c) (Proc.devRef .tc main_v13)) = _
  after_results_simp
  exact foldB_read _ _ _ _ _

theorem V1_w2 (c : Dev nD) : (V1 m ρ c main_v16 : S128x128.Idx → EReal) = foldW invE (m ((c.tc : Thread nD τ).loc main_arg6)) (colBias (m ((c.tc : Thread nD τ).loc main_arg8))) := by
  show StableHlo.after hostOps0 (W0 m ρ c) (Proc.devRef .tc main_v16) = _
  after_results_simp
  exact foldW_read _ _ _ _ _

theorem V1_s2 (c : Dev nD) : rowBias (V1 m ρ c main_v19) = foldB invE (colBias (m ((c.tc : Thread nD τ).loc main_arg7))) (colBias (m ((c.tc : Thread nD τ).loc main_arg8))) (colBias (m ((c.tc : Thread nD τ).loc main_arg9))) := by
  show rowBias (StableHlo.after hostOps0 (W0 m ρ c) (Proc.devRef .tc main_v19)) = _
  after_results_simp
  exact foldB_read _ _ _ _ _

/-! ## What the second kernel finds -/

/-- A buffer the reshape does not write and the first kernel does not window is as the first host stretch left it. -/
theorem W3_through (c : Dev nD) (b : Ref sig .tc) (hb : b ≠ main_v42) (hw : ∀ w, Pipeline.arrRef spec0 w ≠ b) :
    W3 m ρ c (Proc.devRef .tc b) = W1 m ρ c (Proc.devRef .tc b) := by
  show StableHlo.after hostOps1 (W2 m ρ c) (Proc.devRef .tc b) = _
  rw [show StableHlo.after hostOps1 (W2 m ρ c) (Proc.devRef .tc b) = W2 m ρ c (Proc.devRef .tc b) from by
    simp only [hostOps1, after_cons, after_nil]
    rw [reshape_result_ne]; exact hb]
  exact W2_of_ne m ρ c b hw

theorem V3_adj (c : Dev nD) : V3 m ρ c main_arg1 = (m ((c.tc : Thread nD τ).loc main_arg1)) := by
  show StableHlo.after hostOps1 (W2 m ρ c) (Proc.devRef .tc main_arg1) = _
  rw [show StableHlo.after hostOps1 (W2 m ρ c) (Proc.devRef .tc main_arg1) = W2 m ρ c (Proc.devRef .tc main_arg1) from by
    simp only [hostOps1, after_cons, after_nil]
    rw [reshape_result_ne]; decide]
  exact ((W2_arr m ρ c 0).trans (((dat0 (V1 m ρ) c).arrAt_in 0 rfl _).trans (A_eq0 (V1 m ρ) c 0))).trans (V1_adj m ρ c)

/-- The node features of the second layer are the first kernel's output array. -/
theorem V3_feat (c : Dev nD) : V3 m ρ c main_v41 = (dat0 (V1 m ρ) c).arrAt 6 cfg0.N := by
  show StableHlo.after hostOps1 (W2 m ρ c) (Proc.devRef .tc main_v41) = _
  rw [show StableHlo.after hostOps1 (W2 m ρ c) (Proc.devRef .tc main_v41) = W2 m ρ c (Proc.devRef .tc main_v41) from by
    simp only [hostOps1, after_cons, after_nil]
    rw [reshape_result_ne]; decide]
  exact W2_arr m ρ c 6

theorem V3_w1 (c : Dev nD) : (V3 m ρ c main_v30 : S128x128.Idx → EReal) = foldW invE (m ((c.tc : Thread nD τ).loc main_arg10)) (colBias (m ((c.tc : Thread nD τ).loc main_arg12))) := by
  show W3 m ρ c (Proc.devRef .tc main_v30) = _
  rw [W3_through m ρ c main_v30 (by decide) (by decide)]
  show StableHlo.after hostOps0 (W0 m ρ c) (Proc.devRef .tc main_v30) = _
  after_results_simp
  exact foldW_read _ _ _ _ _

theorem V3_s1 (c : Dev nD) : rowBias (V3 m ρ c main_v33) = foldB invE (colBias (m ((c.tc : Thread nD τ).loc main_arg11))) (colBias (m ((c.tc : Thread nD τ).loc main_arg12))) (colBias (m ((c.tc : Thread nD τ).loc main_arg13))) := by
  show rowBias (W3 m ρ c (Proc.devRef .tc main_v33)) = _
  rw [W3_through m ρ c main_v33 (by decide) (by decide)]
  show rowBias (StableHlo.after hostOps0 (W0 m ρ c) (Proc.devRef .tc main_v33)) = _
  after_results_simp
  exact foldB_read _ _ _ _ _

theorem V3_w2 (c : Dev nD) : (V3 m ρ c main_v36 : S128x128.Idx → EReal) = foldW invE (m ((c.tc : Thread nD τ).loc main_arg14)) (colBias (m ((c.tc : Thread nD τ).loc main_arg16))) := by
  show W3 m ρ c (Proc.devRef .tc main_v36) = _
  rw [W3_through m ρ c main_v36 (by decide) (by decide)]
  show StableHlo.after hostOps0 (W0 m ρ c) (Proc.devRef .tc main_v36) = _
  after_results_simp
  exact foldW_read _ _ _ _ _

theorem V3_s2 (c : Dev nD) : rowBias (V3 m ρ c main_v39) = foldB invE (colBias (m ((c.tc : Thread nD τ).loc main_arg15))) (colBias (m ((c.tc : Thread nD τ).loc main_arg16))) (colBias (m ((c.tc : Thread nD τ).loc main_arg17))) := by
  show rowBias (W3 m ρ c (Proc.devRef .tc main_v39)) = _
  rw [W3_through m ρ c main_v39 (by decide) (by decide)]
  show rowBias (StableHlo.after hostOps0 (W0 m ρ c) (Proc.devRef .tc main_v39)) = _
  after_results_simp
  exact foldB_read _ _ _ _ _

theorem V3_wp (c : Dev nD) : V3 m ρ c main_arg18 = (m ((c.tc : Thread nD τ).loc main_arg18)) := by
  show W3 m ρ c (Proc.devRef .tc main_arg18) = _
  rw [W3_through m ρ c main_arg18 (by decide) (by decide)]
  show StableHlo.after hostOps0 (W0 m ρ c) (Proc.devRef .tc main_arg18) = _
  after_results_simp <;> rfl

theorem V3_bp (c : Dev nD) : rowBias (V3 m ρ c main_v42) = colBias (m ((c.tc : Thread nD τ).loc main_arg19)) := by
  have e : (V3 m ρ c main_v42 : S1x1.Idx → EReal)
      = shapeCast S1x1 (W2 m ρ c (Proc.devRef .tc main_arg19)) shapeCasts_S1_S1x1 := by
    show StableHlo.after hostOps1 (W2 m ρ c) (Proc.devRef .tc main_v42) = _
    simp only [hostOps1, after_cons, after_nil]
    rw [reshape_result]
    rfl
  rw [e, reshape_row]
  have e19 : W2 m ρ c (Proc.devRef .tc main_arg19) = (m ((c.tc : Thread nD τ).loc main_arg19)) := by
    rw [W2_of_ne m ρ c main_arg19 (by decide)]
    show StableHlo.after hostOps0 (W0 m ρ c) (Proc.devRef .tc main_arg19) = _
    after_results_simp <;> rfl
  rw [e19]

end Cert.Gin.Host

end
-- ==== Proof.GinKernel.lean ====
/-
  The idealized kernel program's result, as one function of @main's argument arrays.

  The result buffer ends at what the second kernel's write-backs leave in it: the final prediction of a layer of the
  arrays that kernel finds (`Cert.Gin.Region1.final`). Those arrays are the adjacency, the first kernel's output — a
  layer of the arrays the first kernel finds (`Cert.Gin.Region0.final`) —, and folded weights and biases of the argument
  arrays (`Cert.Gin.Host`). Substituting, the result is `Cert.Gin.kerNet` of the twenty argument arrays.
-/
import proofs.«107468_g41583873360056_cont_8to1_b_969_2_alg».proof.Proof.GinRun
import proofs.«107468_g41583873360056_cont_8to1_b_969_2_alg».proof.Proof.GinRegion0
import proofs.«107468_g41583873360056_cont_8to1_b_969_2_alg».proof.Proof.GinRegion1
import proofs.«107468_g41583873360056_cont_8to1_b_969_2_alg».proof.Proof.GinHost
import proofs.«107468_g41583873360056_cont_8to1_b_969_2_alg».proof.Proof.GinNet

set_option maxRecDepth 16384

noncomputable section

namespace Cert.Gin.Kernel

open Idealize.ShloMosaic Idealize.ShloMosaic.TcCoe Idealize.ShloMosaic.ValueIdx Idealize.SL.Sem
open Cert.KernelIdeal Cert.KernelIdeal.Gen Cert.DenseLayer Cert.LayerForms Cert.Gin Cert.Gin.Body

variable (m : (ℓ : Loc nD τ sig) → Buf (Elt Ideal) ℓ) (ρ : Dev nD → PrngReg)

/-- The network from folded weights, of the argument arrays as launched on core `c`. -/
abbrev net (c : Dev nD) : S10000x1.Idx → EReal :=
  kerNet (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))

/-- The last boundary's contents at the result's reference is the network of the argument arrays. -/
theorem result_eq (c : Dev nD) : W4 m ρ c (Proc.devRef .tc main_v43) = net m c := by
  rw [show W4 m ρ c (Proc.devRef .tc main_v43) = (dat1 (V3 m ρ) c).arrAt 8 cfg1.N from W4_arr m ρ c 8]
  rw [Region1.final (V3 m ρ) c]
  unfold Region1.G
  rw [Host.V3_adj, Host.V3_feat, Region0.final (V1 m ρ) c, Host.V3_w1, Host.V3_s1, Host.V3_w2, Host.V3_s2, Host.V3_wp,
    Host.V3_bp]
  unfold Region0.G
  rw [Host.V1_adj, Host.V1_feat, Host.V1_w1, Host.V1_s1, Host.V1_w2, Host.V1_s2]
  rfl

/-- Every weakly fair execution of the idealized kernel program terminates without a fault, its result the network of
    the argument arrays and every argument array as launched. -/
theorem run : θ_run defs (onTc (τ := τ) (main (F := Ideal))) ⟨m, fun _ => 0, ρ⟩ (fun r => ∀ c : Dev nD,
      r.2.mem ((c.tc : Thread nD τ).loc main_v43) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (result_eq m ρ c), (h c).2⟩) (Cert.Gin.Run.run m ρ)

end Cert.Gin.Kernel

end
-- ==== Proof.GinRef.lean ====
/-
  The reference program of the two-layer graph network, read as mathematics.

  The reference's result is a nest of array operations: general dot products, two-step broadcasts of a vector over
  the rows, a division by a scalar broadcast to the whole shape, products, sums and maxima with a broadcast zero. This
  module reads that nest as the network `Cert.Gin.refNet`:

  * a plain general dot product `[M, K] · [K, N]` is the matrix product `mm` (`host_mm`);
  * a vector lifted to a `[1, N]` row along a new leading axis and that row broadcast over `M` rows reads, at `(p, q)`,
    the vector's entry `q` (`bcast_row_apply`), and a rank-0 array broadcast to any shape reads its one entry
    everywhere (`bcast_scalar_apply`);
  * so `t / sqrt c · g + be` with the scalar `sqrt c` and the vectors `g`, `be` broadcast is the evaluation-mode
    normalisation `bn sigmaE t g be` (`host_bn`), `sigmaE` being by definition the square root of that constant.

  With the linear layer and the rectifier read the same way (`Cert.LayerForms.host_layer`, `host_relu`), the nest is,
  from the inside out, two stated layers and the final linear prediction (`ref_term_eq`).
-/
import proofs.«107468_g41583873360056_cont_8to1_b_969_2_alg».proof.Proof.Gen.ReferenceIdeal.Read
import proofs.«107468_g41583873360056_cont_8to1_b_969_2_alg».proof.Proof.GinNet
import proofs.«107468_g41583873360056_cont_8to1_b_969_2_alg».proof.Proof.LibLayerForms

noncomputable section

open scoped BigOperators

namespace Cert.Gin.Ref

open Idealize.ShloMosaic Idealize.ShloMosaic.ValueIdx Cert.DenseLayer Cert.LayerForms Cert.Gin

/-- A plain `[M, K] · [K, N]` general dot product is the matrix product. -/
theorem host_mm {M K N : ℕ} (D : DotDims ⟨2, ![M, K]⟩ ⟨2, ![K, N]⟩ ⟨2, ![M, N]⟩) (hD : D = DotDims.plain M K N)
    (prec : Option ContractPrecision) (l : FVec Ideal ⟨2, ![M, K]⟩ .f32) (r : FVec Ideal ⟨2, ![K, N]⟩ .f32) :
    Host.dotGeneral (F := Ideal) D prec l r = mm l r := by
  funext i
  obtain ⟨p, q, rfl⟩ : ∃ (p : Fin M) (q : Fin N), i = ix2 p q := ⟨i 0, i 1, eq_ix2 i⟩
  show FloatOps.dotGeneral D prec .single l r (ix2 p q) = ∑ k : Fin K, l (ix2 p k) * r (ix2 k q)
  exact dotGeneral_plain_apply D hD prec .single l r p q

/-- A vector lifted to a `[1, N]` row along a new leading axis, the row broadcast over `M` rows, read at `(p, q)`:
    the vector's entry `q`. -/
theorem bcast_row_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [e2, e1]

/-- A rank-0 array broadcast to a shape reads its one entry at every index. -/
theorem bcast_scalar_apply {S : Shape} (c : FVec Ideal ⟨0, ![]⟩ .f32) (h0 : (⟨0, ![]⟩ : Shape).BroadcastsInDim S ![])
    (i : S.Idx) (k : (⟨0, ![]⟩ : Shape).Idx) : broadcastInDim S ![] h0 c i = c k :=
  broadcastInDim_apply ![] h0 c i k fun a => a.elim0

/-- The evaluation-mode normalisation as a host program spells it: a division by the square root of the constant
    `1 + 1e-5`, that scalar broadcast to the shape; a product with the scale vector and a sum with the shift vector, each
    lifted to a row and broadcast over the rows. -/
theorem host_bn {M N : ℕ} (t : FVec Ideal ⟨2, ![M, N]⟩ .f32) (g be : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1]) :
    addf
        (mulf
          (Host.divf t
            (broadcastInDim ⟨2, ![M, N]⟩ ![] h0 (id (Host.sqrt (constant (F := Ideal) ⟨0, ![]⟩ .f32 0x3F800054#32)))))
          (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 be))
      = bn sigmaE t (colBias g) (colBias be) := by
  funext i
  obtain ⟨p, q, rfl⟩ : ∃ (p : Fin M) (q : Fin N), i = ix2 p q := ⟨i 0, i 1, eq_ix2 i⟩
  show Ideal.div (t (ix2 p q))
          (broadcastInDim ⟨2, ![M, N]⟩ ![] h0
            (id (Host.sqrt (constant (F := Ideal) ⟨0, ![]⟩ .f32 0x3F800054#32))) (ix2 p q))
        * broadcastInDim ⟨2, ![M, N]⟩ ![0, 1] h2 (broadcastInDim ⟨2, ![1, N]⟩ ![1] h1 g) (ix2 p q)
      + broadcastInDim ⟨2, ![M, N]⟩ ![0, 1] h2 (broadcastInDim ⟨2, ![1, N]⟩ ![1] h1 be) (ix2 p q)
    = Ideal.div (t (ix2 p q)) sigmaE * g (ix1 q) + be (ix1 q)
  rw [bcast_row_apply g h1 h2 p q, bcast_row_apply be h1 h2 p q,
    bcast_scalar_apply _ h0 (ix2 p q) (fun a => a.elim0)]
  rfl

/-- One layer of the network as a host program spells it, for any sizes: the product with the adjacency, a linear layer,
    the normalisation, the rectifier, and again a linear layer, the normalisation and the rectifier. -/
theorem host_refLayer {M D H : ℕ}
    (DA : DotDims ⟨2, ![M, M]⟩ ⟨2, ![M, D]⟩ ⟨2, ![M, D]⟩) (hDA : DA = DotDims.plain M M D)
    (D1 : DotDims ⟨2, ![M, D]⟩ ⟨2, ![D, H]⟩ ⟨2, ![M, H]⟩) (hD1 : D1 = DotDims.plain M D H)
    (D2 : DotDims ⟨2, ![M, H]⟩ ⟨2, ![H, H]⟩ ⟨2, ![M, H]⟩) (hD2 : D2 = DotDims.plain M H H)
    (prec : Option ContractPrecision)
    (adj : FVec Ideal ⟨2, ![M, M]⟩ .f32) (h : FVec Ideal ⟨2, ![M, D]⟩ .f32)
    (W1 : FVec Ideal ⟨2, ![D, H]⟩ .f32) (b1 g1 be1 : FVec Ideal ⟨1, ![H]⟩ .f32)
    (W2 : FVec Ideal ⟨2, ![H, H]⟩ .f32) (b2 g be : FVec Ideal ⟨1, ![H]⟩ .f32)
    (h0 : (⟨0, ![]⟩ : Shape).BroadcastsInDim ⟨2, ![M, H]⟩ ![])
    (h1 : (⟨1, ![H]⟩ : Shape).BroadcastsInDim ⟨2, ![1, H]⟩ ![1])
    (h2 : (⟨2, ![1, H]⟩ : Shape).BroadcastsInDim ⟨2, ![M, H]⟩ ![0, 1]) :
    maximumf
        (addf
          (mulf
            (Host.divf
              (addf
                (Host.dotGeneral D2 prec
                  (maximumf
                    (addf
                      (mulf
                        (Host.divf
                          (addf (Host.dotGeneral D1 prec (Host.dotGeneral (F := Ideal) DA prec adj h) W1)
                            (broadcastInDim ⟨2, ![M, H]⟩ ![0, 1] h2 (broadcastInDim ⟨2, ![1, H]⟩ ![1] h1 b1)))
                          (broadcastInDim ⟨2, ![M, H]⟩ ![] h0
                            (id (Host.sqrt (constant (F := Ideal) ⟨0, ![]⟩ .f32 0x3F800054#32)))))
                        (broadcastInDim ⟨2, ![M, H]⟩ ![0, 1] h2 (broadcastInDim ⟨2, ![1, H]⟩ ![1] h1 g1)))
                      (broadcastInDim ⟨2, ![M, H]⟩ ![0, 1] h2 (broadcastInDim ⟨2, ![1, H]⟩ ![1] h1 be1)))
                    (broadcastInDim ⟨2, ![M, H]⟩ ![] h0 (constant (F := Ideal) ⟨0, ![]⟩ .f32 0x00000000#32)))
                  W2)
                (broadcastInDim ⟨2, ![M, H]⟩ ![0, 1] h2 (broadcastInDim ⟨2, ![1, H]⟩ ![1] h1 b2)))
              (broadcastInDim ⟨2, ![M, H]⟩ ![] h0
                (id (Host.sqrt (constant (F := Ideal) ⟨0, ![]⟩ .f32 0x3F800054#32)))))
            (broadcastInDim ⟨2, ![M, H]⟩ ![0, 1] h2 (broadcastInDim ⟨2, ![1, H]⟩ ![1] h1 g)))
          (broadcastInDim ⟨2, ![M, H]⟩ ![0, 1] h2 (broadcastInDim ⟨2, ![1, H]⟩ ![1] h1 be)))
        (broadcastInDim ⟨2, ![M, H]⟩ ![] h0 (constant (F := Ideal) ⟨0, ![]⟩ .f32 0x00000000#32))
      = refLayer sigmaE adj h W1 (colBias b1) (colBias g1) (colBias be1) W2 (colBias b2) (colBias g) (colBias be) := by
  rw [host_mm DA hDA prec adj h, host_layer D1 hD1 prec (mm adj h) W1 b1 h1 h2,
    host_bn (dense (mm adj h) W1 (colBias b1)) g1 be1 h0 h1 h2,
    host_relu (bn sigmaE (dense (mm adj h) W1 (colBias b1)) (colBias g1) (colBias be1)) h0,
    host_layer D2 hD2 prec (relu (bn sigmaE (dense (mm adj h) W1 (colBias b1)) (colBias g1) (colBias be1))) W2 b2 h1 h2,
    host_bn
      (dense (relu (bn sigmaE (dense (mm adj h) W1 (colBias b1)) (colBias g1) (colBias be1))) W2 (colBias b2)) g be h0 h1
      h2,
    host_relu
      (bn sigmaE
        (dense (relu (bn sigmaE (dense (mm adj h) W1 (colBias b1)) (colBias g1) (colBias be1))) W2 (colBias b2))
        (colBias g) (colBias be))
      h0]
  rfl

/-! ## The reference's result term

The three dimension records of the reference's dot products are plain ones. -/

open Cert.ReferenceIdeal in
theorem dot_adj_plain :
    dot_S10000x10000_S10000x128_S10000x128_1_0_0_1_n_n = DotDims.plain 10000 10000 128 := rfl

open Cert.ReferenceIdeal in
theorem dot_weight_plain :
    dot_S10000x128_S128x128_S10000x128_1_0_0_1_n_n = DotDims.plain 10000 128 128 := rfl

open Cert.ReferenceIdeal in
theorem dot_pred_plain :
    dot_S10000x128_S128x1_S10000x1_1_0_0_1_n_n = DotDims.plain 10000 128 1 := rfl

open Cert.ReferenceIdeal in
/-- The reference's result, the composed term of its 78 operations, is the stated network: unfolded, the term is the
    host spelling of a layer on the input features, the host spelling of a layer on that, and a last dot product plus
    bias with one output column, the prediction. -/
theorem ref_term_eq
    (x0 : FVec Ideal S10000x128 .f32) (x1 : FVec Ideal S10000x10000 .f32)
    (x2 : FVec Ideal S128x128 .f32) (x3 x4 x5 : FVec Ideal S128 .f32)
    (x6 : FVec Ideal S128x128 .f32) (x7 x8 x9 : FVec Ideal S128 .f32)
    (x10 : FVec Ideal S128x128 .f32) (x11 x12 x13 : FVec Ideal S128 .f32)
    (x14 : FVec Ideal S128x128 .f32) (x15 x16 x17 : FVec Ideal S128 .f32)
    (x18 : FVec Ideal S128x1 .f32) (x19 : FVec Ideal S1 .f32) :
    Read.val_main_v65 (F := Ideal) x0 x1 x2 x3 x4 x5 x6 x7 x8 x9 x10 x11 x12 x13 x14 x15 x16 x17 x18 x19
      = refNet x0 x1 x2 x3 x4 x5 x6 x7 x8 x9 x10 x11 x12 x13 x14 x15 x16 x17 x18 x19 := by
  simp only [Read.val_main_v0, Read.val_main_v1, Read.val_main_v2, Read.val_main_v3, Read.val_main_v4, Read.val_main_v5,
      Read.val_main_v6, Read.val_main_v7, Read.val_main_v8, Read.val_main_v9, Read.val_main_v10, Read.val_main_v11,
      Read.val_main_v12, Read.val_main_v13, Read.val_main_v14, Read.val_main_v15, Read.val_main_v16, Read.val_main_v17,
      Read.val_main_v18, Read.val_main_v19, Read.val_main_v20, Read.val_main_v21, Read.val_main_v22, Read.val_main_v23,
      Read.val_main_v24, Read.val_main_v25, Read.val_main_v26, Read.val_main_v27, Read.val_main_v28, Read.val_main_v29,
      Read.val_main_v30, Read.val_main_v31, Read.val_main_v32, Read.val_main_v33, Read.val_main_v34, Read.val_main_v35,
      Read.val_main_v36, Read.val_main_v37, Read.val_main_v38, Read.val_main_v39, Read.val_main_v40, Read.val_main_v41,
      Read.val_main_v42, Read.val_main_v43, Read.val_main_v44, Read.val_main_v45, Read.val_main_v46, Read.val_main_v47,
      Read.val_main_v48, Read.val_main_v49, Read.val_main_v50, Read.val_main_v51, Read.val_main_v52, Read.val_main_v53,
      Read.val_main_v54, Read.val_main_v55, Read.val_main_v56, Read.val_main_v57, Read.val_main_v58, Read.val_main_v59,
      Read.val_main_v60, Read.val_main_v61, Read.val_main_v62, Read.val_main_v63, Read.val_main_v64, Read.val_main_v65,
      Read.val_main_cst, Read.val_main_cst_0, Read.val_main_cst_1, Read.val_main_cst_2, Read.val_main_call0_cst,
      Read.val_main_call0_v0, Read.val_main_call1_cst, Read.val_main_call1_v0, Read.val_main_call2_cst,
      Read.val_main_call2_v0, Read.val_main_call3_cst, Read.val_main_call3_v0]
  rw [host_refLayer _ dot_adj_plain _ dot_weight_plain _ dot_weight_plain none x1 x0 x2 x3 x4 x5 x6 x7 x8 x9]
  rw [host_refLayer _ dot_adj_plain _ dot_weight_plain _ dot_weight_plain none x1
    (refLayer sigmaE x1 x0 x2 (colBias x3) (colBias x4) (colBias x5) x6 (colBias x7) (colBias x8) (colBias x9))
    x10 x11 x12 x13 x14 x15 x16 x17]
  rw [host_layer _ dot_pred_plain]
  rfl

end Cert.Gin.Ref

end
-- ==== Proof.GinConsts.lean ====
/-
  The two float literals the programs spell, as the real numbers they denote, and the normalisation's denominator.

  `0x3F800000` is `1`; `0x3F800054` is the single-precision number nearest `1 + 1e-5`, exactly `1 + 84 / 2^23 =
  8388692 / 8388608`. It is positive, so its square root `σ` is a positive real: the denominator `sigmaE` is `σ` and the
  folded scale `invE` is `1 / σ`.
-/
import proofs.«107468_g41583873360056_cont_8to1_b_969_2_alg».proof.Proof.GinNet

noncomputable section

namespace Cert.Gin

open Idealize.ShloMosaic

theorem ofBits_one : Ideal.ofBits .f32 0x3F800000#32 = 1 := by
  simp [Ideal.ofBits, Ideal.ieee, -EReal.coe_mul]; norm_num

theorem ofBits_v : Ideal.ofBits .f32 0x3F800054#32 = ((8388692 / 8388608 : ℝ) : EReal) := by
  simp [Ideal.ofBits, Ideal.ieee, -EReal.coe_mul]; norm_num

/-- `sqrt (1 + 84 / 2^23)`. -/
def sigma : ℝ := Real.sqrt (8388692 / 8388608)

theorem sigma_ne : sigma ≠ 0 := (Real.sqrt_pos.mpr (by norm_num)).ne'

theorem sigmaE_eq : sigmaE = (sigma : EReal) := by
  unfold sigmaE sigma
  rw [ofBits_v, Ideal.sqrt_coe, if_neg (by norm_num)]

theorem invE_eq : invE = ((1 / sigma : ℝ) : EReal) := by
  unfold invE
  rw [ofBits_one, sigmaE_eq, Ideal.div_coe sigma_ne, one_mul]

end Cert.Gin

end
-- ==== Proof.FiniteInputs.lean ====
/-
  The precondition "every float input is finite", read back at the extended reals.

  The printed precondition tests each of the twenty input arrays entrywise: it takes |x| = max x (-x), compares it
  strictly against the f32 pattern 0x7F800000, folds the comparison words of one array by "and" from the word 1, and
  joins the twenty results by "and" again. Over the extended reals the pattern 0x7F800000 is +∞ (all-ones exponent,
  zero significand, sign clear), so one comparison word is 1 exactly when max x (-x) < +∞. That excludes x = +∞
  directly and x = -∞ through -(-∞) = +∞, and an extended real that is neither infinity is a real number.

  So: an "and" of words is 1 only if each word is 1 (twenty times, for the join; and once per array, over all its
  indices, for the fold), and each word being 1 makes its entry real. Nothing is ever evaluated over an index
  type: the arrays stay variables throughout, and the fold is opened by the general fact that a fold by "and" into a
  one-index result that came out 1 met only 1s.
-/
import proofs.«107468_g41583873360056_cont_8to1_b_969_2_alg».proof.Pre_finite_inputs
import Idealize.ShloMosaic.Lib.ReduceAll
import Idealize.ShloMosaic.Lib.ValueIdx
import Idealize.ShloMosaic.PureOps.Ideal.Laws

noncomputable section

namespace Cert.Gin.Finite

open Idealize.ShloMosaic
open Cert.Pre_finite_inputs

/-- The rank-0 shape has exactly one index: an index is a function out of the empty type of axes. -/
instance : Subsingleton S_.Idx := ⟨fun a b => funext fun d => d.elim0⟩

/-- The f32 pattern 0x7F800000 (sign 0, exponent all ones, significand 0) denotes +∞. -/
theorem inf_bits : Ideal.ofBits .f32 0x7F800000#32 = (⊤ : EReal) := by
  simp [Ideal.ofBits, Ideal.ieee]

/-- An extended real whose absolute value max x (-x) lies strictly below +∞ is a real number:
    at x = +∞ the maximum is +∞, and at x = -∞ it is -(-∞) = +∞ as well. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One entry: if the word of the comparison |x| < (the pattern 0x7F800000) is 1, then x is a real number.
    The word is the truth value of max x (-x) < +∞, so it being 1 is that inequality. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_bits] at h'
  unfold Ideal.cmp at h'
  have : max x (-x) < (⊤ : EReal) := by
    by_contra hc
    simp [hc] at h'
  exact real_of_abs_lt_top x this

/-- An array whose all-finite test (every |x i| < +∞, folded by "and") comes out 1 is real-valued. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (e : Host.reduce IntOp.andi
          (cmpf .olt (Host.absf (F := Ideal) x)
            (broadcastInDim s ![] hb (constant (F := Ideal) S_ .f32 0x7F800000#32)))
          (constantI S_ 1 1#1) hr hu j = 1#1) :
    ∀ i, ∃ r : ℝ, x i = (r : EReal) := fun i =>
  real_of_cmp (x i) (Host.reduce_andi_all _ _ hr hu j e i)

/-- THE PRECONDITION DECODED: if the all-inputs-finite test of the twenty arrays comes out 1, every entry of every
    array is a real number. The test's one result word is a left-nested "and" of the twenty per-array words, so it
    being 1 makes each of them 1, and each array is then real-valued by `real_of_all`. -/
theorem real_of_fn [Facts]
    (a0 : FVec Ideal S10000x128 .f32) (a1 : FVec Ideal S10000x10000 .f32) (a2 : FVec Ideal S128x128 .f32)
    (a3 a4 a5 : FVec Ideal S128 .f32) (a6 : FVec Ideal S128x128 .f32) (a7 a8 a9 : FVec Ideal S128 .f32)
    (a10 : FVec Ideal S128x128 .f32) (a11 a12 a13 : FVec Ideal S128 .f32) (a14 : FVec Ideal S128x128 .f32)
    (a15 a16 a17 : FVec Ideal S128 .f32) (a18 : FVec Ideal S128x1 .f32) (a19 : FVec Ideal S1 .f32)
    (h : Cert.Pre_finite_inputs.fn (F := Ideal) a0 a1 a2 a3 a4 a5 a6 a7 a8 a9 a10 a11 a12 a13 a14 a15 a16 a17 a18 a19 = (fun _ => 1#1)) :
      (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) := by
  have e := congrFun h ValueIdx.ix0
  dsimp only [fn, fn_part1, fn_part2, fn_part3, fn_part4, fn_part5] at e
  simp only [andi, IntOp.andi_eq_one] at e
  obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := e
  exact ⟨real_of_all _ _ _ a0 _ h0,
    real_of_all _ _ _ a1 _ h1,
    real_of_all _ _ _ a2 _ h2,
    real_of_all _ _ _ a3 _ h3,
    real_of_all _ _ _ a4 _ h4,
    real_of_all _ _ _ a5 _ h5,
    real_of_all _ _ _ a6 _ h6,
    real_of_all _ _ _ a7 _ h7,
    real_of_all _ _ _ a8 _ h8,
    real_of_all _ _ _ a9 _ h9,
    real_of_all _ _ _ a10 _ h10,
    real_of_all _ _ _ a11 _ h11,
    real_of_all _ _ _ a12 _ h12,
    real_of_all _ _ _ a13 _ h13,
    real_of_all _ _ _ a14 _ h14,
    real_of_all _ _ _ a15 _ h15,
    real_of_all _ _ _ a16 _ h16,
    real_of_all _ _ _ a17 _ h17,
    real_of_all _ _ _ a18 _ h18,
    real_of_all _ _ _ a19 _ h19⟩

end Cert.Gin.Finite

end
-- ==== Proof.lean ====
/-
  A two-layer graph network with a dense adjacency, as a fused kernel and as its plain reference, compute the same
  array on the extended reals whenever every input entry is finite.

  The reference normalises after each linear layer: `relu (((x · W + b) / s) · g + be)` with `s = sqrt (1 + 1e-5)`. The
  kernel program first folds each normalisation into the linear layer before it — weights `W · (g · (1 / s))`, bias
  `b · (g · (1 / s)) + be` — and then runs two kernels, each a layer computed block of rows by block of rows of the
  adjacency (the second followed by the final prediction). Over the reals the two are equal by distributivity; on the
  extended reals distributivity needs every number to be real, which the precondition gives for the inputs and which
  sums, products, maxima and the quotient by the positive real `s` preserve.

  The kernel program's result is `Cert.Gin.kerNet` of the argument arrays (Proof/GinKernel.lean, from the generated
  frame's run, the blocks of rows of each kernel, and the host operations read back); the reference's is
  `Cert.Gin.refNet` (Proof/GinRef.lean, from the generated run of the reference); every input entry is real
  (Proof/FiniteInputs.lean); and `refNet = kerNet` on real entries (Proof/GinNet.lean, with the constants of
  Proof/GinConsts.lean). The three frames are the generated ones, and the idealisation's ledger is empty.
-/
import proofs.«107468_g41583873360056_cont_8to1_b_969_2_alg».proof.Defs
import proofs.«107468_g41583873360056_cont_8to1_b_969_2_alg».proof.Proof.Gen.Kernel
import proofs.«107468_g41583873360056_cont_8to1_b_969_2_alg».proof.Proof.Gen.Kernel.Skeleton
import proofs.«107468_g41583873360056_cont_8to1_b_969_2_alg».proof.Proof.Gen.Kernel.Launch
import proofs.«107468_g41583873360056_cont_8to1_b_969_2_alg».proof.Proof.Gen.Kernel.Points
import proofs.«107468_g41583873360056_cont_8to1_b_969_2_alg».proof.Proof.Gen.Kernel.Frame
import proofs.«107468_g41583873360056_cont_8to1_b_969_2_alg».proof.Proof.Gen.KernelIdeal
import proofs.«107468_g41583873360056_cont_8to1_b_969_2_alg».proof.Proof.Gen.KernelIdeal.Skeleton
import proofs.«107468_g41583873360056_cont_8to1_b_969_2_alg».proof.Proof.Gen.KernelIdeal.Launch
import proofs.«107468_g41583873360056_cont_8to1_b_969_2_alg».proof.Proof.Gen.KernelIdeal.Points
import proofs.«107468_g41583873360056_cont_8to1_b_969_2_alg».proof.Proof.Gen.KernelIdeal.Frame
import proofs.«107468_g41583873360056_cont_8to1_b_969_2_alg».proof.Proof.Gen.ReferenceIdeal
import proofs.«107468_g41583873360056_cont_8to1_b_969_2_alg».proof.Proof.Gen.Pre_finite_inputs
import proofs.«107468_g41583873360056_cont_8to1_b_969_2_alg».proof.Proof.Gen.ReferenceIdeal.Run
import proofs.«107468_g41583873360056_cont_8to1_b_969_2_alg».proof.Proof.Gen.ReferenceIdeal.Read
import proofs.«107468_g41583873360056_cont_8to1_b_969_2_alg».proof.Proof.GinKernel
import proofs.«107468_g41583873360056_cont_8to1_b_969_2_alg».proof.Proof.GinRef
import proofs.«107468_g41583873360056_cont_8to1_b_969_2_alg».proof.Proof.GinConsts
import proofs.«107468_g41583873360056_cont_8to1_b_969_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments, with every argument entry finite, the kernel program ends at the
    network from folded weights and the reference at the network as stated: one array. -/
theorem algebraic : Cert.algebraic_KernelIdeal_ReferenceIdeal := by
  intro m ρ m' ρ' hpre hagree
  refine ⟨fun c => Cert.Gin.Kernel.net m c, Cert.Gin.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  obtain ⟨r0, r1, r2, r3, r4, r5, r6, r7, r8, r9, r10, r11, r12, r13, r14, r15, r16, r17, r18, r19⟩ := Cert.Gin.Finite.real_of_fn _ _ _ _ _ _ _ _ _ _ _ _ _ _ _ _ _ _ _ _ (hpre c)
  refine (Cert.ReferenceIdeal.Read.val_main_v65_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))).trans ?_
  rw [Cert.Gin.Ref.ref_term_eq, a0, a1, a2, a3, a4, a5, a6, a7, a8, a9, a10, a11, a12, a13, a14, a15, a16, a17, a18, a19]
  exact Cert.Gin.refNet_eq_kerNet Cert.Gin.sigma Cert.Gin.sigma_ne Cert.Gin.sigmaE_eq Cert.Gin.invE_eq
    r0 r1 r2 r3 r4 r5 r6 r7 r8 r9 r10 r11 r12 r13 r14 r15 r16 r17

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
